-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel

variable [Facts]

def fn {F : FTy → Type} [FloatOps F] (main_arg0 : FVec F S8192x16384 .f32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  main_v3
-- ==== Kernel.lean ====
abbrev S8192x16384 : Shape := ⟨2, ![8192, 16384]⟩
abbrev S1x16384 : Shape := ⟨2, ![1, 16384]⟩
abbrev S8192x512 : Shape := ⟨2, ![8192, 512]⟩
abbrev S1x512 : Shape := ⟨2, ![1, 512]⟩
abbrev S1024x512 : Shape := ⟨2, ![1024, 512]⟩
abbrev S512 : Shape := ⟨1, ![512]⟩
abbrev S_ : Shape := ⟨0, ![]⟩

abbrev nBuf : Space → Nat
  | .hbm => 5
  | .vmem => 4
  | .smem => 0
  | _ => 0

abbrev bufTy : (tb : Table) → Fin (tcTables nBuf tb) → BufTy
  | .hbm, ⟨0, _⟩ => ⟨S8192x16384, .f32⟩
  | .hbm, ⟨1, _⟩ => ⟨S1x16384, .f32⟩
  | .hbm, ⟨2, _⟩ => ⟨S1x16384, .f32⟩
  | .hbm, ⟨3, _⟩ => ⟨S_, .f32⟩
  | .hbm, ⟨4, _⟩ => ⟨S_, .f32⟩
  | .local _ .vmem, ⟨0, _⟩ => ⟨S8192x512, .f32⟩
  | .local _ .vmem, ⟨1, _⟩ => ⟨S8192x512, .f32⟩
  | .local _ .vmem, ⟨2, _⟩ => ⟨S1x512, .f32⟩
  | .local _ .vmem, ⟨3, _⟩ => ⟨S1x512, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c1024_i32 : BitVec 32 := 1024#32
  let v4 : BitVec 32 := Scalar.muli arg3 c1024_i32
  v4
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let c1024_i32 : BitVec 32 := 1024#32
  let v4 : BitVec 32 := Scalar.muli arg3 c1024_i32
  let v5 : BitVec 32 := v4
  let v6 : Index := Scalar.indexCast v5
  let c0_2 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S1024x512 : 0 < S1024x512.numel
  reduces_S1024x512_S512 : S1024x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  reducesTo_S1x16384_S_d0_1 : S1x16384.ReducesTo [0, 1] S_
  h_S_ : 0 < S_.numel
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x512.size a ≤ S8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x16384.size a
  hwx0_0 : ∀ i : grid0.Coords, EltTy.bits .f32 = 32 ∨ (Rect.block (s := S8192x16384) S8192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x16384.size a
  hwx0_1 : ∀ i : grid0.Coords, EltTy.bits .f32 = 32 ∨ (Rect.block (s := S1x16384) S1x512.size (cc0_transform_1 i) (hinb0_1 i)).WholeWords (EltTy.packing .f32)

variable [Facts₀]

abbrev win0_0 : Pipeline.Window sig grid0 :=
  Pipeline.Window.ofSpec (Memref.whole main_arg0) S8192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x16384 : Shape := ⟨2, ![8192, 16384]⟩
abbrev S_ : Shape := ⟨0, ![]⟩
abbrev S16384 : Shape := ⟨1, ![16384]⟩

abbrev nBuf : Space → Nat
  | .hbm => 7
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S8192x16384, .f32⟩
  | .hbm, ⟨2, _⟩ => ⟨S_, .f32⟩
  | .hbm, ⟨3, _⟩ => ⟨S16384, .f32⟩
  | .hbm, ⟨4, _⟩ => ⟨S16384, .f32⟩
  | .hbm, ⟨5, _⟩ => ⟨S_, .f32⟩
  | .hbm, ⟨6, _⟩ => ⟨S_, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S8192x16384_S16384_d0 : S8192x16384.ReducesTo [0] S16384
  h_S_ : 0 < S_.numel
  reducesTo_S16384_S_d0 : S16384.ReducesTo [0] S_

variable [Facts₀]

class Facts : Prop extends Facts₀ where

variable [Facts]
-- ==== Proof.ChunkPayload.lean ====
/-
  One trip of the kernel's row loop, read at an index over the extended reals.

  A trip takes the carried row `acc` (shape [1, 512]) and a run `v` of 1024 rows of the block (shape
  [1024, 512]) and yields `acc + Σ_r v[r, ·]²`: the squares are taken entry by entry, the 1024 rows are
  summed column by column, the resulting vector of 512 is re-read as a single row, and that row is added
  to the carried one. At column `q` this is `acc[0, q] + Σ_{r < 1024} v[r, q] · v[r, q]`.

  The run of rows trip `k` loads is rows `1024·k … 1024·k + 1023` of the block, all 512 columns.
-/
import proofs.«170657_j34316788695050_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.KernelIdeal.ColumnSquares

open Cert.KernelIdeal Cert.KernelIdeal.Gen

/-- The loop's initial row is zero at every column. -/
theorem init_apply (u : Fin 1) (q : Fin 512) : k0_pay1 (F := Ideal) (ix2 u q) = 0 := by
  unfold k0_pay1
  exact Ideal.ofBits_zero_f32

/-- Summing a [1024, 512] array along its rows, column `q` of the result collects the entries `(r, q)`. -/
theorem lift_rows (q : Fin 512) (r : Fin 1024) :
    reduces_S1024x512_S512.lift (ix1 q) r = (ix2 r q : S1024x512.Idx) :=
  funext fun a => Fin.ext (by match a with | ⟨0, _⟩ => rfl | ⟨1, _⟩ => rfl)

/-- One trip's yield at column `q`: the carried entry plus the sum of the squares of the run's column `q`. -/
theorem trip_apply (acc : FVec Ideal S1x512 .f32) (v : Vec Ideal S1024x512 .f32) (u : Fin 1) (q : Fin 512) :
    k0_pay2 (F := Ideal) acc v (ix2 u q) = acc (ix2 u q) + ∑ r : Fin 1024, v (ix2 r q) * v (ix2 r q) := by
  unfold k0_pay2
  refine (addf_apply _ _ _).trans ?_
  refine congrArg (acc (ix2 u q) + ·) ?_
  refine (shapeCast_a_1a_apply _ _ u q).trans ?_
  refine (Ideal.multiReduction_add_single _ _ _ _ _ (ix1 q)).trans ?_
  refine Finset.sum_congr rfl fun r _ => ?_
  exact congrArg (fun j => v j * v j) (lift_rows q r)

/-- The rows trip `k` loads: entry `(r, q)` of the run is entry `(1024·k + r, q)` of the block. -/
theorem run_apply (x : Vec Ideal S8192x512 .f32) (k : Fin k0_t1_loop.trips) (r : Fin 1024) (q : Fin 512)
    (hk : 1024 * k.val + r.val < 8192) :
    View.ld x (Rect.unit (s := S8192x512) (k0_off1 k) S1024x512.size (k0_off1_inb k)) (ix2 r q)
      = x (ix2 ⟨1024 * k.val + r.val, hk⟩ q) := by
  show x _ = x _
  refine congrArg x (funext fun a => Fin.ext ?_)
  match a with
  | ⟨0, _⟩ =>
    rw [LoadRect.idx_apply]
    show k0_off1 k 0 + 1 * r.val = 1024 * k.val + r.val
    rw [k0_off1_eq k]; show 1024 * k.val + 1 * r.val = _; omega
  | ⟨1, _⟩ =>
    rw [LoadRect.idx_apply]
    show k0_off1 k 1 + 1 * q.val = q.val
    rw [k0_off1_eq k]; show 0 + 1 * q.val = _; omega

end Cert.KernelIdeal.ColumnSquares

end
-- ==== Proof.SumLaws.lean ====
/-
  Re-association of a long sum. A sum over the first 1024·(n+1) naturals is the sum over the first 1024·n
  plus the sum over the next run of 1024; and a sum over an initial segment of the naturals is the sum over
  the corresponding finite index type. Both hold in any commutative additive monoid, so in the extended
  reals they need no finiteness.
-/
import Mathlib.Algebra.BigOperators.Fin
import Mathlib.Algebra.BigOperators.Intervals

open scoped BigOperators

namespace L21.SumLaws

variable {M : Type*} [AddCommMonoid M]

/-- The first 1024·(n+1) terms are the first 1024·n terms and then one more run of 1024. -/
theorem sum_range_run (g : ℕ → M) (n : ℕ) :
    ∑ k ∈ Finset.range (1024 * (n + 1)), g k
      = ∑ k ∈ Finset.range (1024 * n), g k + ∑ r : Fin 1024, g (1024 * n + r.val) := by
  rw [Nat.mul_succ, Finset.sum_range_add, Fin.sum_univ_eq_sum_range (fun r => g (1024 * n + r))]

/-- A sum over the naturals below `N` of a function that, below `N`, is `f` of the bounded index, is the
    sum of `f` over `Fin N`. -/
theorem sum_range_eq_sum_fin (N : ℕ) (g : ℕ → M) (f : Fin N → M) (h : ∀ k : Fin N, g k.val = f k) :
    ∑ k ∈ Finset.range N, g k = ∑ k : Fin N, f k := by
  rw [← Fin.sum_univ_eq_sum_range]
  exact Finset.sum_congr rfl fun k _ => h k

end L21.SumLaws
-- ==== Proof.LoopValue.lean ====
/-
  The kernel body's result on one block, read at an index over the extended reals.

  The body runs its row loop 8 times over a block `x` of shape [8192, 512]; trip `k` adds to the carried row the
  column sums of the squares of rows `1024·k … 1024·k + 1023`. Starting from the zero row, the carried row
  before trip `n` holds at column `q` the sum of `x[k, q]²` over the rows `k < 1024·n`; after the last trip
  it is stored whole into the output block, so the output block holds at `(0, q)` the sum of `x[k, q]²` over
  all 8192 rows of the block.
-/
import proofs.«170657_j34316788695050_2_alg».proof.Proof.Gen.KernelIdeal.Frame
import proofs.«170657_j34316788695050_2_alg».proof.Proof.ChunkPayload
import proofs.«170657_j34316788695050_2_alg».proof.Proof.SumLaws
import Idealize.ShloMosaic.Lib.Tactic

noncomputable section

open Idealize.ShloMosaic Idealize.ShloMosaic.TcCoe Idealize.ShloMosaic.ValueIdx Idealize.SL.Sem
open scoped BigOperators

namespace Cert.KernelIdeal.ColumnSquares

open Cert.KernelIdeal Cert.KernelIdeal.Gen

/-- The row loop makes 8 trips. -/
theorem trips_eq : k0_t1_loop.trips = 8 := by decide

theorem hz : (![0, 0] : Fin 2 → Nat) = fun _ => 0 := funext fun a => by fin_cases a <;> rfl

/-- The square of entry `(k, q)` of a block, as a function of a natural row number (zero past the last row). -/
def rowSq (x : Vec Ideal S8192x512 .f32) (q : Fin 512) (k : ℕ) : EReal :=
  if h : k < 8192 then x (ix2 ⟨k, h⟩ q) * x (ix2 ⟨k, h⟩ q) else 0

/-- What a trip yields is the trip's arithmetic applied to the carried row and to the run of rows it loads. -/
theorem trip_eq (c : Dev nD) (i : grid0.Coords) (a1 : Memref sig .tc .vmem S8192x512 .f32) (h1 : a1.IsWhole)
    (a2 : Memref sig .tc .vmem S1x512 .f32) (h2 : a2.IsWhole) (x : Vec Ideal S8192x512 .f32)
    (k : Fin k0_t1_loop.trips) (acc : FVec Ideal S1x512 .f32) :
    tripR_k0_t1 (F := Ideal) Variants.none c none i a1 h1 a2 h2 (h1.unread x) k acc
      = k0_pay2 acc (View.ld x (Rect.unit (s := S8192x512) (k0_off1 k) S1024x512.size (k0_off1_inb k))) := by
  unfold tripR_k0_t1 trip_k0_t1
  dsimp only
  rw [View.readAt_eq_ld, h1.read_unread]

/-- The carried row before trip `n`: at column `q`, the squares of the rows below `1024·n` summed. -/
theorem carried_apply (c : Dev nD) (i : grid0.Coords) (a1 : Memref sig .tc .vmem S8192x512 .f32) (h1 : a1.IsWhole)
    (a2 : Memref sig .tc .vmem S1x512 .f32) (h2 : a2.IsWhole) (x : Vec Ideal S8192x512 .f32) (u : Fin 1) (q : Fin 512) :
    ∀ n : ℕ, n ≤ 8 →
      st_k0_t1 (F := Ideal) Variants.none c none i a1 h1 a2 h2 (h1.unread x) k0_pay1 n (ix2 u q)
        = ∑ k ∈ Finset.range (1024 * n), rowSq x q k
  | 0, _ => by
    rw [st_k0_t1_zero, init_apply]; simp
  | n + 1, hn => by
    have hk : n < k0_t1_loop.trips := by rw [trips_eq]; omega
    have e := st_k0_t1_succ (F := Ideal) Variants.none c none i a1 h1 a2 h2 (h1.unread x) k0_pay1 ⟨n, hk⟩
    dsimp only at e
    rw [e, trip_eq, trip_apply, carried_apply c i a1 h1 a2 h2 x u q n (by omega), L21.SumLaws.sum_range_run]
    refine congrArg (_ + ·) (Finset.sum_congr rfl fun r _ => ?_)
    have hr : 1024 * n + r.val < 8192 := by have := r.isLt; omega
    rw [run_apply x ⟨n, hk⟩ r q hr]
    unfold rowSq
    rw [dif_pos hr]

/-- The body's result block: at `(0, q)`, the squares of column `q` of the input block summed over its 8192 rows. -/
theorem out_apply (c : Dev nD) (i : grid0.Coords) (a1 : Memref sig .tc .vmem S8192x512 .f32) (h1 : a1.IsWhole)
    (a2 : Memref sig .tc .vmem S1x512 .f32) (h2 : a2.IsWhole) (x : Vec Ideal S8192x512 .f32) (u : Fin 1) (q : Fin 512) :
    out0_A_1 (F := Ideal) c i a1 h1 a2 h2 x (ix2 u q) = ∑ k : Fin 8192, x (ix2 k q) * x (ix2 k q) := by
  unfold out0_A_1
  rw [View.read_writes_eq_canon _ _ _ (cover0_A_1 c i a1 h1 a2 h2 x)]
  unfold kernelRun0_A
  dsimp only
  rw [View.canon_unit_zero hz]
  show st_k0_t1 (F := Ideal) Variants.none c none i a1 h1 a2 h2 (h1.unread x) k0_pay1 k0_t1_loop.trips (ix2 u q) = _
  rw [trips_eq, carried_apply c i a1 h1 a2 h2 x u q 8 (le_refl _)]
  refine L21.SumLaws.sum_range_eq_sum_fin 8192 _ _ fun k => ?_
  unfold rowSq
  rw [dif_pos k.isLt]

end Cert.KernelIdeal.ColumnSquares

end
-- ==== Proof.ArrayValue.lean ====
/-
  The kernel's intermediate array after the grid has run, as one function of the argument array.

  The grid has 32 points. Point `t` reads the block of all 8192 rows and columns `512·t … 512·t + 511` of the
  argument, and writes back the block `(0, 512·t … 512·t + 511)` of the [1, 16384] intermediate array. The body
  leaves in that block, at `(0, q)`, the sum over the 8192 rows of the squares of column `q` of its input block;
  column `q` of the input block at point `t` is column `512·t + q` of the argument. The 32 output blocks tile
  the intermediate array (column `j` lies in the block of point `j / 512`), so after the run the intermediate
  array holds at `(0, j)` the sum over `k < 8192` of `S[k, j]²`.
-/
import proofs.«170657_j34316788695050_2_alg».proof.Proof.LoopValue
import Idealize.ShloMosaic.Lib.Pipeline.Value

noncomputable section

open Idealize.ShloMosaic Idealize.ShloMosaic.TcCoe Idealize.ShloMosaic.ValueIdx Idealize.SL.Sem
open Idealize.ShloMosaic.Pipeline (Dat)
open scoped BigOperators

namespace Cert.KernelIdeal.ColumnSquares

open Cert.KernelIdeal Cert.KernelIdeal.Gen

variable (m : (ℓ : Loc nD τ sig) → Buf (Elt Ideal) ℓ) (ρ : Dev nD → PrngReg)

/-- The column sums of squares of a whole [8192, 16384] array, laid out as a [1, 16384] array. -/
def colSq (X : S8192x16384.Idx → EReal) : S1x16384.Idx → EReal :=
  fun j => ∑ k : Fin 8192, X (ix2 k (j 1 : Fin 16384)) * X (ix2 k (j 1 : Fin 16384))

/-- Where the blocks sit, decided over the 32 grid points: the input block of point `t` is block `(0, t)` of the
    argument, its output block is block `(0, t)` of the intermediate array. -/
theorem block_index : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- What point `t` writes back is its block of the column sums of squares of the argument. -/
theorem flushed_eq (c : Dev nD) (t : Fin cfg0.N) :
    (dats m 0 c).flushed 1 t = ((cfg0.win 1).blk t).view.read (Elt Ideal) (colSq (V m c main_arg0)) := by
  show (cfg0.win 1).cut (grid0.coords t) ((dats m 0 c).after 1 t) = _
  rw [after0_1]
  unfold outsAt0
  obtain ⟨e0, e1, e2, e3⟩ := block_index t
  funext y
  obtain ⟨u, q, rfl⟩ : ∃ (u : Fin 1) (q : Fin 512), y = ix2 u q := ⟨y 0, y 1, eq_ix2 y⟩
  refine (out_apply c (grid0.coords t) (ms0_0 t) (hs0_0 t) (ms0_1 t) (hs0_1 t) (iblk m c 0 t) u q).trans ?_
  show _ = colSq (V m c main_arg0) (((cfg0.win 1).blk t).view.emb (ix2 u q))
  unfold colSq
  refine Finset.sum_congr rfl fun k _ => ?_
  have h : iblk m c 0 t (ix2 k q)
      = V m c main_arg0 (ix2 k ((((cfg0.win 1).blk t).view.emb (ix2 u q)) 1 : Fin 16384)) := by
    show V m c main_arg0 (((cfg0.win 0).blk t).view.emb (ix2 k q)) = _
    refine congrArg (V m c main_arg0) (funext fun a => Fin.ext ?_)
    match a with
    | ⟨0, _⟩ => show win0_0.index t (0 : Fin 2) * 8192 + 1 * k.val = k.val; omega
    | ⟨1, _⟩ => show win0_0.index t (1 : Fin 2) * 512 + 1 * q.val = win0_1.index t (1 : Fin 2) * 512 + 1 * q.val; omega
  rw [h]

/-- An index of the intermediate array is in point `t`'s output block iff each coordinate is in the block's range. -/
theorem mem_block (t : Fin cfg0.N) (i : S1x16384.Idx) :
    i ∈ ((cfg0.win 1).blk t).view.set ↔ ∀ a : Fin 2, win0_1.index t a * S1x512.size a ≤ (i a).val ∧ (i a).val < win0_1.index t a * S1x512.size a + S1x512.size a := by
  show i ∈ ((View.whole main_v0).slice (win0_1.rect t)).set ↔ _
  rw [View.set_slice_whole, Rect.mem_set_unit]
  exact Iff.rfl

/-- Every index of the intermediate array is in some point's output block: column `j` in that of point `j / 512`. -/
theorem covered (i : S1x16384.Idx) :
    ∃ t : Fin cfg0.N, (cfg0.win 1).flush t = true ∧ i ∈ ((cfg0.win 1).blk t).view.set := by
  have h0 : (i 0).val < 1 := (i 0).isLt
  have h1 : (i 1).val < 16384 := (i 1).isLt
  have hN : cfg0.N = 32 := N_0
  have ht : (i 1).val / 512 < cfg0.N := by rw [hN]; omega
  obtain ⟨e0, e1, e2, e3⟩ := block_index ⟨(i 1).val / 512, ht⟩
  refine ⟨⟨(i 1).val / 512, ht⟩, flush0_1 _, ?_⟩
  rw [mem_block]
  intro a
  match a with
  | ⟨0, _⟩ =>
    show win0_1.index ⟨(i 1).val / 512, ht⟩ (0 : Fin 2) * 1 ≤ (i 0).val ∧ (i 0).val < win0_1.index ⟨(i 1).val / 512, ht⟩ (0 : Fin 2) * 1 + 1
    omega
  | ⟨1, _⟩ =>
    show win0_1.index ⟨(i 1).val / 512, ht⟩ (1 : Fin 2) * 512 ≤ (i 1).val ∧ (i 1).val < win0_1.index ⟨(i 1).val / 512, ht⟩ (1 : Fin 2) * 512 + 512
    have e3' : win0_1.index ⟨(i 1).val / 512, ht⟩ (1 : Fin 2) = (i 1).val / 512 := e3
    omega

/-- The intermediate array after the run: the column sums of squares of the argument. -/
theorem final (c : Dev nD) :
    (dats m 0 c).arrAt 1 cfg0.N = colSq (m ((c : Thread nD τ).loc main_arg0)) :=
  (dats m 0 c).arrAt_eq_of_cover 1 (colSq (V m c main_arg0)) (fun t _ => flushed_eq m c t) covered

end Cert.KernelIdeal.ColumnSquares

end
-- ==== Proof.Spec.lean ====
/-
  The L2,1 norm over the extended reals: the sum, over the 16384 columns `j` of an [8192, 16384] array `S`,
  of the square root of the sum over the 8192 rows `k` of `S[k, j]²`. Both programs compute this number;
  this module states it once, with no program in sight, together with the two re-indexings the comparison
  uses: a sum over the indices of a one-axis shape is the sum over its coordinate, and a sum over the
  indices of a [1, n] shape is the sum over its second coordinate.
-/
import Idealize.ShloMosaic.PureOps.Ideal
import Idealize.ShloMosaic.Lib.ValueIdx

noncomputable section

open Idealize.ShloMosaic Idealize.ShloMosaic.ValueIdx
open scoped BigOperators

namespace L21

/-- The sum over the columns of the root of each column's sum of squares. -/
def norm (X : (⟨2, ![8192, 16384]⟩ : Shape).Idx → EReal) : EReal :=
  ∑ j : Fin 16384, Ideal.sqrt (∑ k : Fin 8192, X (ix2 k j) * X (ix2 k j))

/-- A one-axis index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- A sum over the indices of a [1, n] shape is the sum over the second coordinate, the first being `0`. -/
theorem sum_idx_row {M : Type*} [AddCommMonoid M] {n : ℕ} (f : (⟨2, ![1, n]⟩ : Shape).Idx → M) :
    ∑ i, f i = ∑ b : Fin n, f (ix2 (0 : Fin 1) b) := by
  rw [sum_idx2, Fin.sum_univ_one]

end L21

end
-- ==== Proof.KernelRun.lean ====
/-
  The kernel program's result over the extended reals is the L2,1 norm of its argument.

  After the grid has run, the [1, 16384] intermediate array holds the column sums of squares of the argument.
  The lines after it take the square root of every entry and sum all the entries from the initial value `0`.
  Read at an index: `0 + Σ` over the indices `(0, j)` of the roots, the root at `(0, j)` that of
  `Σ_k S[k, j] · S[k, j]` — the norm, the zero being neutral for the extended reals' sum and the indices of a
  [1, 16384] shape running over their second coordinate.
-/
import proofs.«170657_j34316788695050_2_alg».proof.Proof.ArrayValue
import proofs.«170657_j34316788695050_2_alg».proof.Proof.Spec
import Idealize.ShloMosaic.Lib.StableHlo.Run
import Idealize.ShloMosaic.PureOps.Ideal.Laws

noncomputable section

open Idealize.ShloMosaic Idealize.ShloMosaic.TcCoe Idealize.ShloMosaic.ValueIdx Idealize.SL.Sem
open Idealize.ShloMosaic.Pipeline (Dat)
open scoped BigOperators

namespace Cert.KernelIdeal.ColumnSquares

open Cert.KernelIdeal Cert.KernelIdeal.Gen

variable (m : (ℓ : Loc nD τ sig) → Buf (Elt Ideal) ℓ) (ρ : Dev nD → PrngReg)

/-- Roots of a [1, 16384] array summed from `0`, at the result's one index: the sum over the columns of the roots. -/
theorem rootsum_apply (A : FVec Ideal S1x16384 .f32) (i : S_.Idx) :
    Host.reduceAdd (F := Ideal) (Host.sqrt A) (constant S_ .f32 0x00000000#32) reducesTo_S1x16384_S_d0_1 h_S_ i
      = ∑ b : Fin 16384, Ideal.sqrt (A (ix2 (0 : Fin 1) b)) := by
  simp only [Host.reduceAdd, Ideal.hostReduceAdd_def]
  rw [Ideal.hostReduceAdd_total reducesTo_S1x16384_S_d0_1 (fun b => b.elim0), L21.sum_idx_row]
  simp only [constant, Ideal.ofBits_def, Ideal.ofBits_zero_f32, zero_add]
  rfl

/-- The program's result buffer after the lines that follow the kernel: the norm of the argument. -/
theorem tail_eq (c : Dev nD) :
    Pipeline.afterTail₀ cfgs (dats m) 0 (V0 m) [hostOps1] c main_v2
      = fun _ => L21.norm (m ((c : Thread nD τ).loc main_arg0)) := by
  unfold Pipeline.afterTail₀
  show StableHlo.after hostOps1 _ (Proc.devRef .tc main_v2) = _
  after_results
  rw [(Pipeline.withArrays_arr spec0 launch0.win.arr_inj c _ _ 1).trans (final m c)]
  funext i
  rw [rootsum_apply]
  rfl

/-- The run, read: the result at the norm of the argument, the argument unchanged. -/
theorem run : θ_run defs (onTc (τ := τ) (main (F := Ideal))) ⟨m, fun _ => 0, ρ⟩ fun r => ∀ c : Dev nD,
      r.2.mem ((c : Thread nD τ).loc main_v2) = (fun _ => L21.norm (m ((c : Thread nD τ).loc main_arg0)))
      ∧ r.2.mem ((c : Thread nD τ).loc main_arg0) = m ((c : Thread nD τ).loc main_arg0) :=
  (θ_run defs _ _).mono (fun r h c =>
      ⟨((h c).2 main_v2 (Pipeline.mem_restRefs_of main_v2 rfl (by decide))).trans (tail_eq m c),
        ((h c).1 0).trans (((dats m 0 c).arrAt_in 0 rfl _).trans ((A_eq m c 0).trans (V_main_arg0 m c)))⟩)
    (run_main m ρ)

end Cert.KernelIdeal.ColumnSquares

end
-- ==== Proof.ReferenceValue.lean ====
/-
  The reference's result over the extended reals is the L2,1 norm of its argument.

  The reference squares the array entry by entry, sums the squares along the rows from the initial value `0`
  into a vector of 16384 column sums, takes the square root of each, and sums those from the initial value
  `0`. Read one stage at a time at an index: the last stage is `0 + Σ_j` of the roots, the root at `j` is the
  root of `0 + Σ_k S[k, j] · S[k, j]`; the two zeros are neutral for the extended reals' sum.
-/
import proofs.«170657_j34316788695050_2_alg».proof.Proof.Gen.ReferenceIdeal.Read
import proofs.«170657_j34316788695050_2_alg».proof.Proof.Spec
import Idealize.ShloMosaic.PureOps.Ideal.Laws

noncomputable section

open Idealize.ShloMosaic Idealize.ShloMosaic.ValueIdx
open scoped BigOperators

namespace Cert.ReferenceIdeal.RefValue

open Cert.ReferenceIdeal Cert.ReferenceIdeal.Gen Cert.ReferenceIdeal.Read

/-- The row sum's entry `j` collects the entries `(k, j)` of the squared array. -/
theorem rows_idx (b : Fin 16384) (k : Fin 8192) : idx_main_v1 (ix1 b) k = (ix2 k b : S8192x16384.Idx) :=
  funext fun a => Fin.ext (by match a with | ⟨0, _⟩ => rfl | ⟨1, _⟩ => rfl)

/-- The reference's result is the norm of its argument. -/
theorem result_eq (X : (⟨S8192x16384, .f32⟩ : BufTy).Contents (Elt Ideal)) (i : S_.Idx) :
    val_main_v3 (F := Ideal) X i = L21.norm X := by
  rw [val_main_v3_apply, L21.sum_idx1]
  unfold L21.norm
  simp only [val_main_cst_0_apply, val_main_v2_apply, val_main_v1_apply, val_main_cst_apply, val_main_v0_apply, rows_idx,
    Ideal.hostUnary_sqrt_def, Ideal.ofBits_def, Ideal.ofBits_zero_f32, Ideal.mulf_def, zero_add]

end Cert.ReferenceIdeal.RefValue

end
-- ==== Proof.lean ====
/-
  The kernel computes the L2,1 norm of an [8192, 16384] array `S` — the sum over the columns `j` of
  `sqrt (Σ_k S[k, j]²)` — in two stages: a grid of 32 points, each reducing a block of 512 whole columns to its
  512 column sums of squares by eight accumulated runs of 1024 rows, and then the roots of the 16384 column
  sums, summed. The reference squares the array, sums along the rows, takes roots and sums them.

  Over the extended reals both results are the same number (`L21.norm`, Proof/Spec.lean). The only law that
  joins them is re-association of a sum: eight consecutive runs of 1024 rows are the 8192 rows
  (Proof/SumLaws.lean), and `0 + x = x`; neither needs the entries to be finite, so the precondition is not
  opened. The kernel side is read off its run: one trip of the row loop at an index (Proof/ChunkPayload.lean),
  the loop and the body's stored block (Proof/LoopValue.lean), the intermediate array from its 32 blocks
  (Proof/ArrayValue.lean), the lines after the kernel (Proof/KernelRun.lean). The reference side is its run
  read one stage at a time (Proof/ReferenceValue.lean).

  The three frames: each kernel program's run keeps its argument array; the reference's run does too. The
  idealization rewrote nothing, so there is nothing to preserve.
-/
import proofs.«170657_j34316788695050_2_alg».proof.Defs
import proofs.«170657_j34316788695050_2_alg».proof.Proof.Gen.Kernel
import proofs.«170657_j34316788695050_2_alg».proof.Proof.Gen.Kernel.Skeleton
import proofs.«170657_j34316788695050_2_alg».proof.Proof.Gen.Kernel.Loops
import proofs.«170657_j34316788695050_2_alg».proof.Proof.Gen.Kernel.Launch
import proofs.«170657_j34316788695050_2_alg».proof.Proof.Gen.Kernel.Points
import proofs.«170657_j34316788695050_2_alg».proof.Proof.Gen.Kernel.Frame
import proofs.«170657_j34316788695050_2_alg».proof.Proof.Gen.KernelIdeal
import proofs.«170657_j34316788695050_2_alg».proof.Proof.Gen.KernelIdeal.Skeleton
import proofs.«170657_j34316788695050_2_alg».proof.Proof.Gen.KernelIdeal.Loops
import proofs.«170657_j34316788695050_2_alg».proof.Proof.Gen.KernelIdeal.Launch
import proofs.«170657_j34316788695050_2_alg».proof.Proof.Gen.KernelIdeal.Points
import proofs.«170657_j34316788695050_2_alg».proof.Proof.Gen.KernelIdeal.Frame
import proofs.«170657_j34316788695050_2_alg».proof.Proof.Gen.ReferenceIdeal
import proofs.«170657_j34316788695050_2_alg».proof.Proof.Gen.ReferenceIdeal.Run
import proofs.«170657_j34316788695050_2_alg».proof.Proof.Gen.ReferenceIdeal.Read
import proofs.«170657_j34316788695050_2_alg».proof.Proof.Gen.Pre_finite_inputs
import proofs.«170657_j34316788695050_2_alg».proof.Proof.KernelRun
import proofs.«170657_j34316788695050_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program runs and keeps its argument. -/
theorem frame_kernel : Cert.frame_Kernel := fun m ρ _ => Cert.Kernel.Gen.frame m ρ

/-- The idealized kernel program runs and keeps its argument. -/
theorem frame_kernelIdeal : Cert.frame_KernelIdeal := fun m ρ _ => Cert.KernelIdeal.Gen.frame m ρ

/-- The idealized reference runs and keeps its argument: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument, both idealized programs end with the norm of that argument. -/
theorem algebraic : Cert.algebraic_KernelIdeal_ReferenceIdeal := by
  intro m ρ m' ρ' _ hagree
  refine ⟨fun c _ => L21.norm (m ((c.tc : Thread Cert.KernelIdeal.nD Cert.KernelIdeal.τ).loc Cert.KernelIdeal.main_arg0)),
    Cert.KernelIdeal.ColumnSquares.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, hagree c]
  exact funext fun i => Cert.ReferenceIdeal.RefValue.result_eq _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
